-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S256 .f32) (main_arg6 : FVec F S256x40 .f32) (main_arg7 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x40 .f32 := Host.absf main_arg6
  let main_cst_8 : FVec F S_ .f32 := constant S_ .f32 0x7F800000#32
  let main_v25 : FVec F S256x40 .f32 := broadcastInDim S256x40 ![] bcast_S_S256x40 main_cst_8
  let main_v26 : IVec S256x40 1 := cmpf .olt main_v24 main_v25
  let main_c_9 : IVec S_ 1 := constantI S_ 1 1#1
  let main_v27 : IVec S_ 1 := (fun x v => Host.reduce IntOp.andi x v reducesTo_S256x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x40 .f32) (main_arg7 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 116
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x256, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x256, .f32⟩
  | .hbm, ⟨51, _⟩ => ⟨S850000x1, .f32⟩
  | .hbm, ⟨52, _⟩ => ⟨S850000x256, .f32⟩
  | .hbm, ⟨53, _⟩ => ⟨S850000x256, .f32⟩
  | .hbm, ⟨54, _⟩ => ⟨S_, .f32⟩
  | .hbm, ⟨55, _⟩ => ⟨S50000x256, .f32⟩
  | .hbm, ⟨56, _⟩ => ⟨S850000x1, .i32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x256, .f32⟩
  | .hbm, ⟨71, _⟩ => ⟨S850000x1, .f32⟩
  | .hbm, ⟨72, _⟩ => ⟨S850000x256, .f32⟩
  | .hbm, ⟨73, _⟩ => ⟨S850000x256, .f32⟩
  | .hbm, ⟨74, _⟩ => ⟨S_, .f32⟩
  | .hbm, ⟨75, _⟩ => ⟨S50000x256, .f32⟩
  | .hbm, ⟨76, _⟩ => ⟨S850000x1, .i32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S50000x40, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x40, .f32⟩
  | .hbm, ⟨91, _⟩ => ⟨S850000x1, .f32⟩
  | .hbm, ⟨92, _⟩ => ⟨S850000x40, .f32⟩
  | .hbm, ⟨93, _⟩ => ⟨S850000x40, .f32⟩
  | .hbm, ⟨94, _⟩ => ⟨S_, .f32⟩
  | .hbm, ⟨95, _⟩ => ⟨S50000x40, .f32⟩
  | .hbm, ⟨96, _⟩ => ⟨S850000x1, .i32⟩
  | .hbm, ⟨97, _⟩ => ⟨S50000x40, .f32⟩
  | .hbm, ⟨98, _⟩ => ⟨S1x40, .f32⟩
  | .hbm, ⟨99, _⟩ => ⟨S50000x40, .f32⟩
  | .hbm, ⟨100, _⟩ => ⟨S50000x40, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x40, .f32⟩
  | .hbm, ⟨108, _⟩ => ⟨S50000x40, .f32⟩
  | .hbm, ⟨109, _⟩ => ⟨S50000x40, .f32⟩
  | .hbm, ⟨110, _⟩ => ⟨S_, .f32⟩
  | .hbm, ⟨111, _⟩ => ⟨S50000, .f32⟩
  | .hbm, ⟨112, _⟩ => ⟨S50000x1, .f32⟩
  | .hbm, ⟨113, _⟩ => ⟨S50000x1, .f32⟩
  | .hbm, ⟨114, _⟩ => ⟨S50000x40, .f32⟩
  | .hbm, ⟨115, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x40, .f32⟩
  | .local _ .vmem, ⟨13, _⟩ => ⟨S2000x40, .f32⟩
  | .local _ .vmem, ⟨14, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_10 : Ref sig .tc := ⟨.hbm, 82, rfl⟩
abbrev main_v62 : Ref sig .tc := ⟨.hbm, 83, rfl⟩
abbrev main_v63 : Ref sig .tc := ⟨.hbm, 84, rfl⟩
abbrev main_c_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_call0_cst : Ref sig .tc := ⟨.hbm, 101, rfl⟩
abbrev main_call0_v0 : Ref sig .tc := ⟨.hbm, 102, rfl⟩
abbrev main_call0_cst_0 : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_call0_v5 : Ref sig .tc := ⟨.hbm, 108, rfl⟩
abbrev main_call0_v6 : Ref sig .tc := ⟨.hbm, 109, rfl⟩
abbrev main_call0_cst_1 : Ref sig .tc := ⟨.hbm, 110, rfl⟩
abbrev main_call0_v7 : Ref sig .tc := ⟨.hbm, 111, rfl⟩
abbrev main_call0_v8 : Ref sig .tc := ⟨.hbm, 112, rfl⟩
abbrev main_call0_v9 : Ref sig .tc := ⟨.hbm, 113, rfl⟩
abbrev main_call0_v10 : Ref sig .tc := ⟨.hbm, 114, rfl⟩
abbrev main_v78 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x40_S256x40_0_0 : ∀ a, (![0, 0] : Fin 2 → Nat) a + S256x40.size a ≤ S256x40.size a
  h_S256x40 : 0 < S256x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x40_S2000x40_1_0_0_1_n_n_wf : DotDims.WF S2000x256 S256x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x40.size a ≤ S256x40.size a
  hwx2_1 : ∀ i : grid2.Coords, EltTy.bits .f32 = 32 ∨ (Rect.block (s := S256x40) S256x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 160
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S50000, .f32⟩
  | 22 => ⟨S50000x256, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x256, .f32⟩
  | 51 => ⟨S850000x1, .f32⟩
  | 52 => ⟨S850000x256, .f32⟩
  | 53 => ⟨S850000x256, .f32⟩
  | 54 => ⟨S_, .f32⟩
  | 55 => ⟨S50000x256, .f32⟩
  | 56 => ⟨S850000x1, .i32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S50000x256, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000, .f32⟩
  | 83 => ⟨S850000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x256, .f32⟩
  | 93 => ⟨S850000x1, .f32⟩
  | 94 => ⟨S850000x256, .f32⟩
  | 95 => ⟨S850000x256, .f32⟩
  | 96 => ⟨S_, .f32⟩
  | 97 => ⟨S50000x256, .f32⟩
  | 98 => ⟨S850000x1, .i32⟩
  | 99 => ⟨S50000x256, .f32⟩
  | 100 => ⟨S1x256, .f32⟩
  | 101 => ⟨S50000x256, .f32⟩
  | 102 => ⟨S50000x256, .f32⟩
  | 103 => ⟨S_, .f32⟩
  | 104 => ⟨S50000x256, .f32⟩
  | 105 => ⟨S50000x256, .f32⟩
  | 106 => ⟨S50000x40, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S850000, .f32⟩
  | 126 => ⟨S_, .i32⟩
  | 127 => ⟨S850000, .i32⟩
  | _ => ⟨S50000x256, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000x40, .f32⟩
  | 7 => ⟨S850000x1, .f32⟩
  | 8 => ⟨S850000x40, .f32⟩
  | 9 => ⟨S850000x40, .f32⟩
  | 10 => ⟨S_, .f32⟩
  | 11 => ⟨S50000x40, .f32⟩
  | 12 => ⟨S850000x1, .i32⟩
  | 13 => ⟨S50000x40, .f32⟩
  | 14 => ⟨S1x40, .f32⟩
  | 15 => ⟨S50000x40, .f32⟩
  | 16 => ⟨S50000x40, .f32⟩
  | 17 => ⟨S_, .f32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x40, .f32⟩
  | 24 => ⟨S50000x40, .f32⟩
  | 25 => ⟨S50000x40, .f32⟩
  | 26 => ⟨S_, .f32⟩
  | 27 => ⟨S50000, .f32⟩
  | 28 => ⟨S50000x1, .f32⟩
  | 29 => ⟨S50000x1, .f32⟩
  | 30 => ⟨S50000x40, .f32⟩
  | 31 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_c_14 : Ref sig .tc := ⟨.hbm, 107, rfl⟩
abbrev main_v79 : Ref sig .tc := ⟨.hbm, 108, rfl⟩
abbrev main_v80 : Ref sig .tc := ⟨.hbm, 109, rfl⟩
abbrev main_c_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_16 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_18 : Ref sig .tc := ⟨.hbm, 126, rfl⟩
abbrev main_v94 : Ref sig .tc := ⟨.hbm, 127, rfl⟩
abbrev main_v95 : Ref sig .tc := ⟨.hbm, 128, rfl⟩
abbrev main_c_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_20 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_call2_cst : Ref sig .tc := ⟨.hbm, 145, rfl⟩
abbrev main_call2_v0 : Ref sig .tc := ⟨.hbm, 146, rfl⟩
abbrev main_call2_cst_0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_v6 : Ref sig .tc := ⟨.hbm, 153, rfl⟩
abbrev main_call2_cst_1 : Ref sig .tc := ⟨.hbm, 154, rfl⟩
abbrev main_call2_v7 : Ref sig .tc := ⟨.hbm, 155, rfl⟩
abbrev main_call2_v8 : Ref sig .tc := ⟨.hbm, 156, rfl⟩
abbrev main_call2_v9 : Ref sig .tc := ⟨.hbm, 157, rfl⟩
abbrev main_call2_v10 : Ref sig .tc := ⟨.hbm, 158, rfl⟩
abbrev main_v110 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  dot_S50000x256_S256x256_S50000x256_1_0_0_1_n_n_wf : DotDims.WF S50000x256 S256x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x40_S50000x40_1_0_0_1_n_n_wf : DotDims.WF S50000x256 S256x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The run of the whole program, with its result named.

  The program is five stretches of host operations around three calls.  Its buffers' contents at each
  boundary are a fold from the launch memory: a stretch applies its operations in order, a call replaces its
  result array by what its 25 write-backs leave and keeps every other buffer.  Every weakly fair execution
  terminates without a fault, the eight argument arrays end as launched, and the result buffer ends holding
  what the fold gives it at the last boundary.  The later modules read that value.
-/
import proofs.«173659_j27616639713834_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting; the
    result buffer ends at the last boundary's contents of it, and the argument arrays end as launched: the launch
    over the program's eight segments, the last thread state read against the final state. -/
theorem run : θ_run defs (onTc (τ := τ) (main (F := F))) ⟨m, fun _ => 0, ρ⟩ (fun r => ∀ c : Dev nD,
      r.2.mem ((c.tc : Thread nD τ).loc main_v78) = W8 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v78 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«173659_j27616639713834_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.Payloads.lean ====
/-
  The three dense layers' block arithmetic, read at an index.

  Each of the three kernels multiplies a block of 2000 rows of its left operand — for the second and the
  third kernel first clamped below at zero, entry by entry — by the whole weight matrix, into a zero
  accumulator.  At the ideal values the narrowing of both operands to a 16-bit format is the identity and
  the product is the plain sum over the contraction index, so the entry at the block-local index (p, q) is
  the entry (r, q) of the WHOLE product of the whole left operand (clamped at zero for the second and third
  kernel) with the weights, r being the row of the whole array that row p of the block is.  Nothing but the
  definition of the product is used: no law of the extended reals, no finiteness.
-/
import proofs.«173659_j27616639713834_1_alg».proof.Proof.Gen.KernelIdeal.Skeleton
import proofs.«173659_j27616639713834_1_alg».proof.Proof.LibRowBlocks
import Idealize.ShloMosaic.Lib.Pipeline.Value

noncomputable section

namespace Cert.KernelIdeal.Dense

open Idealize.ShloMosaic Idealize.ShloMosaic.ValueIdx Cert.KernelIdeal Cert.KernelIdeal.Gen Cert.Lib.RowBlocks

/-- An array of 50000 rows of 256 clamped below at zero, entry by entry, spelt as the host spells it: the
    maximum with the zero scalar spread over the array. -/
def clamp (X : FVec Ideal S50000x256 .f32) : FVec Ideal S50000x256 .f32 :=
  maximumf X (broadcastInDim S50000x256 ![] bcast_S_S50000x256 (constant (F := Ideal) S_ .f32 0x00000000#32))

/-- The clamped array at an index is the larger of the entry and the zero word's value. -/
theorem clamp_apply (X : FVec Ideal S50000x256 .f32) (i : S50000x256.Idx) :
    clamp X i = max (X i) (Ideal.ofBits .f32 0x00000000#32) := rfl

/-- First kernel: the block product at (p, q) is the whole product x · w at (r, q). -/
theorem first_block (x : FVec Ideal S2000x256 .f32) (w : FVec Ideal S256x256 .f32) (X : FVec Ideal S50000x256 .f32)
    (p : Fin 2000) (q : Fin 256) (r : Fin 50000) (hx : ∀ k : Fin 256, x (ix2 p k) = X (ix2 r k)) :
    k0_pay1 (F := Ideal) x w (ix2 p q) = Host.dotGeneral (DotDims.plain 50000 256 256) none X w (ix2 r q) := by
  unfold k0_pay1
  exact matmul_rows_eq_dotGeneral (M := 50000) (K := 256) (N := 256) none none X w _ _ p r q (fun k => hx k) (fun _ => rfl)

/-- Second kernel: the block product at (p, q) is the whole product clamp(x) · w at (r, q). -/
theorem second_block (x : FVec Ideal S2000x256 .f32) (w : FVec Ideal S256x256 .f32) (X : FVec Ideal S50000x256 .f32)
    (p : Fin 2000) (q : Fin 256) (r : Fin 50000) (hx : ∀ k : Fin 256, x (ix2 p k) = X (ix2 r k)) :
    k1_pay1 (F := Ideal) x w (ix2 p q) = Host.dotGeneral (DotDims.plain 50000 256 256) none (clamp X) w (ix2 r q) := by
  unfold k1_pay1
  refine matmul_rows_eq_dotGeneral (M := 50000) (K := 256) (N := 256) none none (clamp X) w _ _ p r q (fun k => ?_) (fun _ => rfl)
  rw [shapeCast_self]
  show max (x (ix2 p k)) _ = max (X (ix2 r k)) _
  rw [hx k]
  rfl

/-- Third kernel: the block product at (p, q), q one of 40 columns, is the whole product clamp(x) · w at (r, q). -/
theorem third_block (x : FVec Ideal S2000x256 .f32) (w : FVec Ideal S256x40 .f32) (X : FVec Ideal S50000x256 .f32)
    (p : Fin 2000) (q : Fin 40) (r : Fin 50000) (hx : ∀ k : Fin 256, x (ix2 p k) = X (ix2 r k)) :
    k2_pay1 (F := Ideal) x w (ix2 p q) = Host.dotGeneral (DotDims.plain 50000 256 40) none (clamp X) w (ix2 r q) := by
  unfold k2_pay1
  refine matmul_rows_eq_dotGeneral (M := 50000) (K := 256) (N := 40) none none (clamp X) w _ _ p r q (fun k => ?_) (fun _ => rfl)
  rw [shapeCast_self]
  show max (x (ix2 p k)) _ = max (X (ix2 r k)) _
  rw [hx k]
  rfl

end Cert.KernelIdeal.Dense

end
-- ==== Proof.DenseArrays.lean ====
/-
  What each of the three calls leaves in its result array.

  A call walks 25 grid points; at point t it multiplies rows 2000 t … 2000 t + 1999 of its left operand by
  the whole weight matrix and writes the product back as rows 2000 t … 2000 t + 1999 of the result.  The 25
  row blocks tile the 50000 rows, so the result array ends holding the WHOLE product of the left operand —
  clamped below at zero for the second and third call — with the weights, whatever the arrays hold when the
  call is entered.
-/
import proofs.«173659_j27616639713834_1_alg».proof.Proof.Gen.KernelIdeal.Frame
import proofs.«173659_j27616639713834_1_alg».proof.Proof.Payloads

noncomputable section

namespace Cert.KernelIdeal.Dense

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- Every access of the three bodies starts at the origin of its buffer. -/
theorem no_offset : (![0, 0] : Fin 2 → Nat) = fun _ => 0 := funext fun a => by fin_cases a <;> rfl

/-! ## The first call -/

/-- The first call's index maps, decided over its 25 points: the row block of the left operand and of the result
    is the point's number, the weights' block is the whole matrix. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row 2000 t + p of the array as the call finds it. -/
theorem left0 (c : Dev nD) (t : Fin cfg0.N) (p : Fin 2000) (k : Fin 256) (r : Fin 50000) (hr : r.val = 2000 * t.val + p.val) :
    iblk0 V c 0 t (ix2 p k) = V c main_arg0 (ix2 r k) := by
  show V c main_arg0 (((cfg0.win 0).blk t).view.emb (ix2 p k)) = V c main_arg0 (ix2 r k)
  refine congrArg _ (funext fun a => Fin.ext ?_)
  obtain ⟨e0, e1, -⟩ := maps0 t
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The weights' block at every point is the whole weight matrix. -/
theorem right0 (c : Dev nD) (t : Fin cfg0.N) : iblk0 V c 1 t = V c main_arg2 := by
  funext j
  show V c main_arg2 (((cfg0.win 1).blk t).view.emb j) = V c main_arg2 j
  refine congrArg _ (funext fun a => Fin.ext ?_)
  obtain ⟨-, -, e2, e3, -⟩ := maps0 t
  match a with
  | ⟨0, _⟩ => show win0_1.index t (0 : Fin 2) * 256 + 1 * (j 0).val = (j 0).val; rw [e2]; omega
  | ⟨1, _⟩ => show win0_1.index t (1 : Fin 2) * 256 + 1 * (j 1).val = (j 1).val; rw [e3]; omega

/-- The whole product the first call computes: the left operand times the weights, as the call finds them. -/
abbrev product0 (c : Dev nD) : FVec Ideal S50000x256 .f32 :=
  Host.dotGeneral (φ₁ := .f32) (φ₂ := .f32) (DotDims.plain 50000 256 256) none (V c main_arg0) (V c main_arg2)

/-- What point t writes back is rows 2000 t … 2000 t + 1999 of the whole product. -/
theorem flushed0 (c : Dev nD) (t : Fin cfg0.N) :
    (dat0 V c).flushed 2 t = ((cfg0.win 2).blk t).view.read (Elt Ideal) (product0 V c) := by
  show (cfg0.win 2).cut (grid0.coords t) ((dat0 V c).after 2 t) = _
  rw [after0_2]
  unfold out0_2
  rw [View.canon_unit_zero no_offset]
  simp only [View.ld_unit_zero (S := S2000x256) no_offset, View.ld_unit_zero (S := S256x256) no_offset]
  funext j
  obtain ⟨p, q, rfl⟩ : ∃ (p : Fin 2000) (q : Fin 256), j = ix2 p q := ⟨j 0, j 1, eq_ix2 j⟩
  have ht : t.val < 25 := lt_of_lt_of_eq t.isLt N_0
  have hr : 2000 * t.val + p.val < 50000 := by have := p.isLt; omega
  obtain ⟨-, -, -, -, e4, e5⟩ := maps0 t
  show k0_pay1 (iblk0 V c 0 t) (iblk0 V c 1 t) (ix2 p q) = product0 V c (((cfg0.win 2).blk t).view.emb (ix2 p q))
  refine (first_block (iblk0 V c 0 t) (iblk0 V c 1 t) (V c main_arg0) p q ⟨_, hr⟩ (fun k => left0 V c t p k _ rfl)).trans ?_
  rw [right0 V c t]
  show product0 V c _ = product0 V c _
  refine congrArg (product0 V c) (funext fun a => Fin.ext ?_)
  match a with
  | ⟨0, _⟩ => show 2000 * t.val + p.val = win0_2.index t (0 : Fin 2) * 2000 + 1 * p.val; rw [e4]; omega
  | ⟨1, _⟩ => show q.val = win0_2.index t (1 : Fin 2) * 256 + 1 * q.val; rw [e5]; omega

/-- An index of the result array is in point t's block iff each coordinate is in the block's range on its axis. -/
theorem mem_block0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v27).slice (win0_2.rect t)).set ↔ _
  rw [View.set_slice_whole, Rect.mem_set_unit]
  exact Iff.rfl

/-- Row r of the result lies in the block of point r / 2000. -/
theorem cover0 (i : S50000x256.Idx) : ∃ t : Fin cfg0.N, (cfg0.win 2).flush t = true ∧ i ∈ ((cfg0.win 2).blk t).view.set := by
  have h0 : (i 0).val < 50000 := (i 0).isLt
  have h1 : (i 1).val < 256 := (i 1).isLt
  have hN : (i 0).val / 2000 < cfg0.N := by rw [show cfg0.N = 25 from N_0]; omega
  refine ⟨⟨(i 0).val / 2000, hN⟩, flush0_2 _, ?_⟩
  rw [mem_block0]
  obtain ⟨-, -, -, -, e4, e5⟩ := maps0 ⟨(i 0).val / 2000, hN⟩
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; rw [e4]; show (i 0).val / 2000 * 2000 ≤ (i 0).val ∧ (i 0).val < (i 0).val / 2000 * 2000 + 2000; omega
  | ⟨1, _⟩ => show win0_2.index ⟨(i 0).val / 2000, hN⟩ (1 : Fin 2) * 256 ≤ (i 1).val ∧ (i 1).val < win0_2.index ⟨(i 0).val / 2000, hN⟩ (1 : Fin 2) * 256 + 256; rw [e5]; omega

/-- THE FIRST CALL'S RESULT ARRAY: the whole product of its two operand arrays. -/
theorem array0 (c : Dev nD) : (dat0 V c).arrAt 2 cfg0.N = product0 V c :=
  (dat0 V c).arrAt_eq_of_cover 2 (product0 V c) (fun t _ => flushed0 V c t) (cover0)

/-! ## The second call -/

/-- The second call's index maps, decided over its 25 points: the row block of the left operand and of the result
    is the point's number, the weights' block is the whole matrix. -/
theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at point t is row 2000 t + p of the array as the call finds it. -/
theorem left1 (c : Dev nD) (t : Fin cfg1.N) (p : Fin 2000) (k : Fin 256) (r : Fin 50000) (hr : r.val = 2000 * t.val + p.val) :
    iblk1 V c 0 t (ix2 p k) = V c main_v43 (ix2 r k) := by
  show V c main_v43 (((cfg1.win 0).blk t).view.emb (ix2 p k)) = V c main_v43 (ix2 r k)
  refine congrArg _ (funext fun a => Fin.ext ?_)
  obtain ⟨e0, e1, -⟩ := maps1 t
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- The weights' block at every point is the whole weight matrix. -/
theorem right1 (c : Dev nD) (t : Fin cfg1.N) : iblk1 V c 1 t = V c main_arg4 := by
  funext j
  show V c main_arg4 (((cfg1.win 1).blk t).view.emb j) = V c main_arg4 j
  refine congrArg _ (funext fun a => Fin.ext ?_)
  obtain ⟨-, -, e2, e3, -⟩ := maps1 t
  match a with
  | ⟨0, _⟩ => show win1_1.index t (0 : Fin 2) * 256 + 1 * (j 0).val = (j 0).val; rw [e2]; omega
  | ⟨1, _⟩ => show win1_1.index t (1 : Fin 2) * 256 + 1 * (j 1).val = (j 1).val; rw [e3]; omega

/-- The whole product the second call computes: the left operand clamped at zero, times the weights, as the call finds them. -/
abbrev product1 (c : Dev nD) : FVec Ideal S50000x256 .f32 :=
  Host.dotGeneral (φ₁ := .f32) (φ₂ := .f32) (DotDims.plain 50000 256 256) none (clamp (V c main_v43)) (V c main_arg4)

/-- What point t writes back is rows 2000 t … 2000 t + 1999 of the whole product. -/
theorem flushed1 (c : Dev nD) (t : Fin cfg1.N) :
    (dat1 V c).flushed 2 t = ((cfg1.win 2).blk t).view.read (Elt Ideal) (product1 V c) := by
  show (cfg1.win 2).cut (grid1.coords t) ((dat1 V c).after 2 t) = _
  rw [after1_2]
  unfold out1_2
  rw [View.canon_unit_zero no_offset]
  simp only [View.ld_unit_zero (S := S2000x256) no_offset, View.ld_unit_zero (S := S256x256) no_offset]
  funext j
  obtain ⟨p, q, rfl⟩ : ∃ (p : Fin 2000) (q : Fin 256), j = ix2 p q := ⟨j 0, j 1, eq_ix2 j⟩
  have ht : t.val < 25 := lt_of_lt_of_eq t.isLt N_1
  have hr : 2000 * t.val + p.val < 50000 := by have := p.isLt; omega
  obtain ⟨-, -, -, -, e4, e5⟩ := maps1 t
  show k1_pay1 (iblk1 V c 0 t) (iblk1 V c 1 t) (ix2 p q) = product1 V c (((cfg1.win 2).blk t).view.emb (ix2 p q))
  refine (second_block (iblk1 V c 0 t) (iblk1 V c 1 t) (V c main_v43) p q ⟨_, hr⟩ (fun k => left1 V c t p k _ rfl)).trans ?_
  rw [right1 V c t]
  show product1 V c _ = product1 V c _
  refine congrArg (product1 V c) (funext fun a => Fin.ext ?_)
  match a with
  | ⟨0, _⟩ => show 2000 * t.val + p.val = win1_2.index t (0 : Fin 2) * 2000 + 1 * p.val; rw [e4]; omega
  | ⟨1, _⟩ => show q.val = win1_2.index t (1 : Fin 2) * 256 + 1 * q.val; rw [e5]; omega

/-- An index of the result array is in point t's block iff each coordinate is in the block's range on its axis. -/
theorem mem_block1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v44).slice (win1_2.rect t)).set ↔ _
  rw [View.set_slice_whole, Rect.mem_set_unit]
  exact Iff.rfl

/-- Row r of the result lies in the block of point r / 2000. -/
theorem cover1 (i : S50000x256.Idx) : ∃ t : Fin cfg1.N, (cfg1.win 2).flush t = true ∧ i ∈ ((cfg1.win 2).blk t).view.set := by
  have h0 : (i 0).val < 50000 := (i 0).isLt
  have h1 : (i 1).val < 256 := (i 1).isLt
  have hN : (i 0).val / 2000 < cfg1.N := by rw [show cfg1.N = 25 from N_1]; omega
  refine ⟨⟨(i 0).val / 2000, hN⟩, flush1_2 _, ?_⟩
  rw [mem_block1]
  obtain ⟨-, -, -, -, e4, e5⟩ := maps1 ⟨(i 0).val / 2000, hN⟩
  intro a
  match a with
  | ⟨0, _⟩ => show win1_2.index ⟨(i 0).val / 2000, hN⟩ (0 : Fin 2) * 2000 ≤ (i 0).val ∧ (i 0).val < win1_2.index ⟨(i 0).val / 2000, hN⟩ (0 : Fin 2) * 2000 + 2000; rw [e4]; show (i 0).val / 2000 * 2000 ≤ (i 0).val ∧ (i 0).val < (i 0).val / 2000 * 2000 + 2000; omega
  | ⟨1, _⟩ => show win1_2.index ⟨(i 0).val / 2000, hN⟩ (1 : Fin 2) * 256 ≤ (i 1).val ∧ (i 1).val < win1_2.index ⟨(i 0).val / 2000, hN⟩ (1 : Fin 2) * 256 + 256; rw [e5]; omega

/-- THE SECOND CALL'S RESULT ARRAY: the whole product of its left operand array, clamped at zero, with its weights. -/
theorem array1 (c : Dev nD) : (dat1 V c).arrAt 2 cfg1.N = product1 V c :=
  (dat1 V c).arrAt_eq_of_cover 2 (product1 V c) (fun t _ => flushed1 V c t) (cover1)

/-! ## The third call -/

/-- The third call's index maps, decided over its 25 points: the row block of the left operand and of the result
    is the point's number, the weights' block is the whole matrix. -/
theorem maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the left operand's block at point t is row 2000 t + p of the array as the call finds it. -/
theorem left2 (c : Dev nD) (t : Fin cfg2.N) (p : Fin 2000) (k : Fin 256) (r : Fin 50000) (hr : r.val = 2000 * t.val + p.val) :
    iblk2 V c 0 t (ix2 p k) = V c main_v60 (ix2 r k) := by
  show V c main_v60 (((cfg2.win 0).blk t).view.emb (ix2 p k)) = V c main_v60 (ix2 r k)
  refine congrArg _ (funext fun a => Fin.ext ?_)
  obtain ⟨e0, e1, -⟩ := maps2 t
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- The weights' block at every point is the whole weight matrix. -/
theorem right2 (c : Dev nD) (t : Fin cfg2.N) : iblk2 V c 1 t = V c main_arg6 := by
  funext j
  show V c main_arg6 (((cfg2.win 1).blk t).view.emb j) = V c main_arg6 j
  refine congrArg _ (funext fun a => Fin.ext ?_)
  obtain ⟨-, -, e2, e3, -⟩ := maps2 t
  match a with
  | ⟨0, _⟩ => show win2_1.index t (0 : Fin 2) * 256 + 1 * (j 0).val = (j 0).val; rw [e2]; omega
  | ⟨1, _⟩ => show win2_1.index t (1 : Fin 2) * 40 + 1 * (j 1).val = (j 1).val; rw [e3]; omega

/-- The whole product the third call computes: the left operand clamped at zero, times the 40 columns of weights, as the call finds them. -/
abbrev product2 (c : Dev nD) : FVec Ideal S50000x40 .f32 :=
  Host.dotGeneral (φ₁ := .f32) (φ₂ := .f32) (DotDims.plain 50000 256 40) none (clamp (V c main_v60)) (V c main_arg6)

/-- What point t writes back is rows 2000 t … 2000 t + 1999 of the whole product. -/
theorem flushed2 (c : Dev nD) (t : Fin cfg2.N) :
    (dat2 V c).flushed 2 t = ((cfg2.win 2).blk t).view.read (Elt Ideal) (product2 V c) := by
  show (cfg2.win 2).cut (grid2.coords t) ((dat2 V c).after 2 t) = _
  rw [after2_2]
  unfold out2_2
  rw [View.canon_unit_zero no_offset]
  simp only [View.ld_unit_zero (S := S2000x256) no_offset, View.ld_unit_zero (S := S256x40) no_offset]
  funext j
  obtain ⟨p, q, rfl⟩ : ∃ (p : Fin 2000) (q : Fin 40), j = ix2 p q := ⟨j 0, j 1, eq_ix2 j⟩
  have ht : t.val < 25 := lt_of_lt_of_eq t.isLt N_2
  have hr : 2000 * t.val + p.val < 50000 := by have := p.isLt; omega
  obtain ⟨-, -, -, -, e4, e5⟩ := maps2 t
  show k2_pay1 (iblk2 V c 0 t) (iblk2 V c 1 t) (ix2 p q) = product2 V c (((cfg2.win 2).blk t).view.emb (ix2 p q))
  refine (third_block (iblk2 V c 0 t) (iblk2 V c 1 t) (V c main_v60) p q ⟨_, hr⟩ (fun k => left2 V c t p k _ rfl)).trans ?_
  rw [right2 V c t]
  show product2 V c _ = product2 V c _
  refine congrArg (product2 V c) (funext fun a => Fin.ext ?_)
  match a with
  | ⟨0, _⟩ => show 2000 * t.val + p.val = win2_2.index t (0 : Fin 2) * 2000 + 1 * p.val; rw [e4]; omega
  | ⟨1, _⟩ => show q.val = win2_2.index t (1 : Fin 2) * 40 + 1 * q.val; rw [e5]; omega

/-- An index of the result array is in point t's block iff each coordinate is in the block's range on its axis. -/
theorem mem_block2 (t : Fin cfg2.N) (i : S50000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v61).slice (win2_2.rect t)).set ↔ _
  rw [View.set_slice_whole, Rect.mem_set_unit]
  exact Iff.rfl

/-- Row r of the result lies in the block of point r / 2000. -/
theorem cover2 (i : S50000x40.Idx) : ∃ t : Fin cfg2.N, (cfg2.win 2).flush t = true ∧ i ∈ ((cfg2.win 2).blk t).view.set := by
  have h0 : (i 0).val < 50000 := (i 0).isLt
  have h1 : (i 1).val < 40 := (i 1).isLt
  have hN : (i 0).val / 2000 < cfg2.N := by rw [show cfg2.N = 25 from N_2]; omega
  refine ⟨⟨(i 0).val / 2000, hN⟩, flush2_2 _, ?_⟩
  rw [mem_block2]
  obtain ⟨-, -, -, -, e4, e5⟩ := maps2 ⟨(i 0).val / 2000, hN⟩
  intro a
  match a with
  | ⟨0, _⟩ => show win2_2.index ⟨(i 0).val / 2000, hN⟩ (0 : Fin 2) * 2000 ≤ (i 0).val ∧ (i 0).val < win2_2.index ⟨(i 0).val / 2000, hN⟩ (0 : Fin 2) * 2000 + 2000; rw [e4]; show (i 0).val / 2000 * 2000 ≤ (i 0).val ∧ (i 0).val < (i 0).val / 2000 * 2000 + 2000; omega
  | ⟨1, _⟩ => show win2_2.index ⟨(i 0).val / 2000, hN⟩ (1 : Fin 2) * 40 ≤ (i 1).val ∧ (i 1).val < win2_2.index ⟨(i 0).val / 2000, hN⟩ (1 : Fin 2) * 40 + 40; rw [e5]; omega

/-- THE THIRD CALL'S RESULT ARRAY, 40 columns wide: the whole product of its left operand array, clamped at zero, with its weights. -/
theorem array2 (c : Dev nD) : (dat2 V c).arrAt 2 cfg2.N = product2 V c :=
  (dat2 V c).arrAt_eq_of_cover 2 (product2 V c) (fun t _ => flushed2 V c t) (cover2)

end Cert.KernelIdeal.Dense

end
-- ==== Proof.LibTypedRefs.lean ====
/-
  Contents moved to a typed reference's buffer type and back.

  A module-local function's operations are stated over references that carry the type of the tensor value they
  hold; each operation's function is moved to the buffer's own contents type along the reference's type
  equation, on the way in and on the way out.  The two moves are transports along one equation and its inverse,
  so one after the other they are the identity, for any signature, any value types and any typed reference —
  without computing the buffer's type.
-/
import Idealize.ShloMosaic.Lib.StableHlo

noncomputable section

namespace Cert.Lib.TypedRefs

open Idealize.ShloMosaic Idealize.ShloMosaic.StableHlo

variable {sig : RefSig} {Val : EltTy → Type} {T : BufTy}

/-- Out to the buffer's type and back in: the contents. -/
theorem ofBuf_toBuf (x : TRef sig T) (v : T.Contents Val) : x.ofBuf (x.toBuf v) = v := by
  obtain ⟨r, rfl, _, _⟩ := x; rfl

/-- In from the buffer's type and back out: the contents. -/
theorem toBuf_ofBuf (x : TRef sig T) (u : x.ref.ty.Contents Val) : x.toBuf (x.ofBuf u) = u := by
  obtain ⟨r, rfl, _, _⟩ := x; rfl

end Cert.Lib.TypedRefs

end
-- ==== Proof.HostStretches.lean ====
/-
  The host operations between the calls, read against the reference's own stages.

  Around its three calls the program runs five stretches of host operations: the edge list with the self-loops
  appended, the in-degrees, their inverse square roots and the per-edge weight (before the first call); after each
  call the layer's aggregation — gather the product's rows by source node, scale each row by its edge's weight,
  add the rows up by destination node, add the bias —; and after the last aggregation the row-wise log-softmax.
  The reference runs the same operations on the same values, so each stretch's result, as a function of what the
  stretch reads, is one of the reference's stages of the arguments as soon as what it reads are the stages
  before it.  The reference recomputes the per-edge weight in every layer and the program computes it once: the
  three computations are one term of the edge list.  Every equation here is between two spellings of one
  composition of operations; no arithmetic is used.
-/
import proofs.«173659_j27616639713834_1_alg».proof.Proof.Gen.KernelIdeal.Launch
import proofs.«173659_j27616639713834_1_alg».proof.Proof.RefReadPatched
import proofs.«173659_j27616639713834_1_alg».proof.Proof.LibTypedRefs
import Idealize.ShloMosaic.Lib.StableHlo.Run

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen

variable {F : FTy → Type} [FloatOps F]

variable (W : Valuation τ sig (Elt F))

/-! ## Before the first call -/

/-- The source nodes of the edges, self-loops appended. -/
theorem sources : after hostOps0 W (Proc.devRef .tc main_v3) = Cert.ReferenceIdeal.ReadP.val_main_v3 (W (Proc.devRef .tc main_arg1)) := by
  after_results_simp; rfl

/-- The destination nodes of the edges, self-loops appended. -/
theorem targets : after hostOps0 W (Proc.devRef .tc main_v6) = Cert.ReferenceIdeal.ReadP.val_main_v6 (W (Proc.devRef .tc main_arg1)) := by
  after_results_simp; rfl

/-- The per-edge weight: the product of the two end nodes' inverse square-root degrees. -/
theorem weights : after hostOps0 W (Proc.devRef .tc main_v26) = Cert.ReferenceIdeal.ReadP.val_main_v27 (W (Proc.devRef .tc main_arg1)) := by
  after_results_simp; rfl

theorem keep0_arg0 : after hostOps0 W (Proc.devRef .tc main_arg0) = W (Proc.devRef .tc main_arg0) := by after_results_simp
theorem keep0_arg2 : after hostOps0 W (Proc.devRef .tc main_arg2) = W (Proc.devRef .tc main_arg2) := by after_results_simp
theorem keep0_arg3 : after hostOps0 W (Proc.devRef .tc main_arg3) = W (Proc.devRef .tc main_arg3) := by after_results_simp
theorem keep0_arg4 : after hostOps0 W (Proc.devRef .tc main_arg4) = W (Proc.devRef .tc main_arg4) := by after_results_simp
theorem keep0_arg5 : after hostOps0 W (Proc.devRef .tc main_arg5) = W (Proc.devRef .tc main_arg5) := by after_results_simp
theorem keep0_arg6 : after hostOps0 W (Proc.devRef .tc main_arg6) = W (Proc.devRef .tc main_arg6) := by after_results_simp
theorem keep0_arg7 : after hostOps0 W (Proc.devRef .tc main_arg7) = W (Proc.devRef .tc main_arg7) := by after_results_simp

/-! ## The three computations of the per-edge weight are one -/

theorem weights_second (x1 : (⟨Cert.ReferenceIdeal.S2x800000, .i32⟩ : BufTy).Contents (Elt F)) :
    Cert.ReferenceIdeal.ReadP.val_main_v60 x1 = Cert.ReferenceIdeal.ReadP.val_main_v27 x1 := rfl

theorem weights_third (x1 : (⟨Cert.ReferenceIdeal.S2x800000, .i32⟩ : BufTy).Contents (Elt F)) :
    Cert.ReferenceIdeal.ReadP.val_main_v93 x1 = Cert.ReferenceIdeal.ReadP.val_main_v27 x1 := rfl

/-! ## After the first call -/

section
variable (x0 : (⟨Cert.ReferenceIdeal.S50000x256, .f32⟩ : BufTy).Contents (Elt F)) (x1 : (⟨Cert.ReferenceIdeal.S2x800000, .i32⟩ : BufTy).Contents (Elt F))
  (x2 : (⟨Cert.ReferenceIdeal.S256x256, .f32⟩ : BufTy).Contents (Elt F)) (x3 : (⟨Cert.ReferenceIdeal.S256, .f32⟩ : BufTy).Contents (Elt F))
  (x4 : (⟨Cert.ReferenceIdeal.S256x256, .f32⟩ : BufTy).Contents (Elt F)) (x5 : (⟨Cert.ReferenceIdeal.S256, .f32⟩ : BufTy).Contents (Elt F))
  (x6 : (⟨Cert.ReferenceIdeal.S256x40, .f32⟩ : BufTy).Contents (Elt F)) (x7 : (⟨Cert.ReferenceIdeal.S40, .f32⟩ : BufTy).Contents (Elt F))

/-- The first layer: the first product's rows gathered by source, weighted, added up by destination, plus the bias. -/
theorem layer1 (hp : W (Proc.devRef .tc main_v27) = Cert.ReferenceIdeal.ReadP.val_main_v12 x0 x2)
    (hs : W (Proc.devRef .tc main_v3) = Cert.ReferenceIdeal.ReadP.val_main_v3 x1) (hd : W (Proc.devRef .tc main_v6) = Cert.ReferenceIdeal.ReadP.val_main_v6 x1)
    (hw : W (Proc.devRef .tc main_v26) = Cert.ReferenceIdeal.ReadP.val_main_v27 x1) (hb : W (Proc.devRef .tc main_arg3) = x3) :
    after hostOps1 W (Proc.devRef .tc main_v43) = Cert.ReferenceIdeal.ReadP.val_main_v43 x0 x1 x2 x3 := by
  after_results_simp
  rw [hp, hs, hd, hw, hb]
  rfl

/-- The second layer, its weight the reference's second computation of it. -/
theorem layer2 (hp : W (Proc.devRef .tc main_v44) = Cert.ReferenceIdeal.ReadP.val_main_v45 x0 x1 x2 x3 x4)
    (hs : W (Proc.devRef .tc main_v3) = Cert.ReferenceIdeal.ReadP.val_main_v3 x1) (hd : W (Proc.devRef .tc main_v6) = Cert.ReferenceIdeal.ReadP.val_main_v6 x1)
    (hw : W (Proc.devRef .tc main_v26) = Cert.ReferenceIdeal.ReadP.val_main_v60 x1) (hb : W (Proc.devRef .tc main_arg5) = x5) :
    after hostOps2 W (Proc.devRef .tc main_v60) = Cert.ReferenceIdeal.ReadP.val_main_v76 x0 x1 x2 x3 x4 x5 := by
  after_results_simp
  rw [hp, hs, hd, hw, hb]
  rfl

/-- The third layer, 40 columns wide, its weight the reference's third computation of it. -/
theorem layer3 (hp : W (Proc.devRef .tc main_v61) = Cert.ReferenceIdeal.ReadP.val_main_v78 x0 x1 x2 x3 x4 x5 x6)
    (hs : W (Proc.devRef .tc main_v3) = Cert.ReferenceIdeal.ReadP.val_main_v3 x1) (hd : W (Proc.devRef .tc main_v6) = Cert.ReferenceIdeal.ReadP.val_main_v6 x1)
    (hw : W (Proc.devRef .tc main_v26) = Cert.ReferenceIdeal.ReadP.val_main_v93 x1) (hb : W (Proc.devRef .tc main_arg7) = x7) :
    after hostOps3 W (Proc.devRef .tc main_v77) = Cert.ReferenceIdeal.ReadP.val_main_v109 x0 x1 x2 x3 x4 x5 x6 x7 := by
  after_results_simp
  rw [hp, hs, hd, hw, hb]
  rfl

/-- The row-wise log-softmax of the third layer's result. -/
theorem log_softmax (hp : W (Proc.devRef .tc main_v77) = Cert.ReferenceIdeal.ReadP.val_main_v109 x0 x1 x2 x3 x4 x5 x6 x7) :
    after hostOps3_1 W (Proc.devRef .tc main_v78) = Cert.ReferenceIdeal.ReadP.val_main_v110 x0 x1 x2 x3 x4 x5 x6 x7 := by
  after_results
  simp only [Cert.Lib.TypedRefs.ofBuf_toBuf]
  rw [hp]
  rfl

end

theorem keep1_v3 : after hostOps1 W (Proc.devRef .tc main_v3) = W (Proc.devRef .tc main_v3) := by after_results_simp
theorem keep1_v6 : after hostOps1 W (Proc.devRef .tc main_v6) = W (Proc.devRef .tc main_v6) := by after_results_simp
theorem keep1_v26 : after hostOps1 W (Proc.devRef .tc main_v26) = W (Proc.devRef .tc main_v26) := by after_results_simp
theorem keep1_arg4 : after hostOps1 W (Proc.devRef .tc main_arg4) = W (Proc.devRef .tc main_arg4) := by after_results_simp
theorem keep1_arg5 : after hostOps1 W (Proc.devRef .tc main_arg5) = W (Proc.devRef .tc main_arg5) := by after_results_simp
theorem keep1_arg6 : after hostOps1 W (Proc.devRef .tc main_arg6) = W (Proc.devRef .tc main_arg6) := by after_results_simp
theorem keep1_arg7 : after hostOps1 W (Proc.devRef .tc main_arg7) = W (Proc.devRef .tc main_arg7) := by after_results_simp

theorem keep2_v3 : after hostOps2 W (Proc.devRef .tc main_v3) = W (Proc.devRef .tc main_v3) := by after_results_simp
theorem keep2_v6 : after hostOps2 W (Proc.devRef .tc main_v6) = W (Proc.devRef .tc main_v6) := by after_results_simp
theorem keep2_v26 : after hostOps2 W (Proc.devRef .tc main_v26) = W (Proc.devRef .tc main_v26) := by after_results_simp
theorem keep2_arg6 : after hostOps2 W (Proc.devRef .tc main_arg6) = W (Proc.devRef .tc main_arg6) := by after_results_simp
theorem keep2_arg7 : after hostOps2 W (Proc.devRef .tc main_arg7) = W (Proc.devRef .tc main_arg7) := by after_results_simp

end Cert.KernelIdeal.Between

end
-- ==== Proof.Result.lean ====
/-
  The program's result, as one of the reference's stages of the arguments.

  Boundary by boundary: before the first call the edge lists and the per-edge weight are the reference's terms of
  the edge-index argument; each call's result array is the whole product of the array before it (clamped at zero
  from the second call on) with its weight matrix, which is the reference's product stage; each aggregation
  between the calls is the reference's aggregation of that product; and the closing log-softmax is the
  reference's.  Every buffer a later stretch reads is written once, so it keeps its contents across the calls and
  stretches in between.
-/
import proofs.«173659_j27616639713834_1_alg».proof.Proof.KernelRun
import proofs.«173659_j27616639713834_1_alg».proof.Proof.DenseArrays
import proofs.«173659_j27616639713834_1_alg».proof.Proof.HostStretches

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Between Cert.KernelIdeal.Dense

variable (m : (ℓ : Loc nD τ sig) → Buf (Elt Ideal) ℓ) (ρ : Dev nD → PrngReg) (c : Dev nD)

/-- THE RESULT BUFFER at the last boundary is the reference's last stage of the eight argument arrays. -/
theorem result_eq : W8 m ρ c (Proc.devRef .tc main_v78)
    = Cert.ReferenceIdeal.ReadP.val_main_v110 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  -- before the first call
  have s1 : W1 m ρ c (Proc.devRef .tc main_v3) = Cert.ReferenceIdeal.ReadP.val_main_v3 (m ((c : Thread nD τ).loc main_arg1)) := sources (W0 m ρ c)
  have d1 : W1 m ρ c (Proc.devRef .tc main_v6) = Cert.ReferenceIdeal.ReadP.val_main_v6 (m ((c : Thread nD τ).loc main_arg1)) := targets (W0 m ρ c)
  have n1 : W1 m ρ c (Proc.devRef .tc main_v26) = Cert.ReferenceIdeal.ReadP.val_main_v27 (m ((c : Thread nD τ).loc main_arg1)) := weights (W0 m ρ c)
  have a10 : W1 m ρ c (Proc.devRef .tc main_arg0) = m ((c : Thread nD τ).loc main_arg0) := keep0_arg0 (W0 m ρ c)
  have a12 : W1 m ρ c (Proc.devRef .tc main_arg2) = m ((c : Thread nD τ).loc main_arg2) := keep0_arg2 (W0 m ρ c)
  have a13 : W1 m ρ c (Proc.devRef .tc main_arg3) = m ((c : Thread nD τ).loc main_arg3) := keep0_arg3 (W0 m ρ c)
  have a14 : W1 m ρ c (Proc.devRef .tc main_arg4) = m ((c : Thread nD τ).loc main_arg4) := keep0_arg4 (W0 m ρ c)
  have a15 : W1 m ρ c (Proc.devRef .tc main_arg5) = m ((c : Thread nD τ).loc main_arg5) := keep0_arg5 (W0 m ρ c)
  have a16 : W1 m ρ c (Proc.devRef .tc main_arg6) = m ((c : Thread nD τ).loc main_arg6) := keep0_arg6 (W0 m ρ c)
  have a17 : W1 m ρ c (Proc.devRef .tc main_arg7) = m ((c : Thread nD τ).loc main_arg7) := keep0_arg7 (W0 m ρ c)
  -- the first call
  have p2 : W2 m ρ c (Proc.devRef .tc main_v27) = Cert.ReferenceIdeal.ReadP.val_main_v12 (m ((c : Thread nD τ).loc main_arg0)) (m ((c : Thread nD τ).loc main_arg2)) := by
    refine (W2_arr m ρ c 2).trans ((array0 (V1 m ρ) c).trans ?_)
    show Host.dotGeneral (F := Ideal) (φ₁ := .f32) (φ₂ := .f32) (DotDims.plain 50000 256 256) none (W1 m ρ c (Proc.devRef .tc main_arg0)) (W1 m ρ c (Proc.devRef .tc main_arg2)) = _
    rw [a10, a12]; rfl
  have s2 : W2 m ρ c (Proc.devRef .tc main_v3) = _ := (W2_of_ne m ρ c main_v3 (by decide)).trans s1
  have d2 : W2 m ρ c (Proc.devRef .tc main_v6) = _ := (W2_of_ne m ρ c main_v6 (by decide)).trans d1
  have n2 : W2 m ρ c (Proc.devRef .tc main_v26) = _ := (W2_of_ne m ρ c main_v26 (by decide)).trans n1
  have a23 : W2 m ρ c (Proc.devRef .tc main_arg3) = _ := (W2_of_ne m ρ c main_arg3 (by decide)).trans a13
  have a24 : W2 m ρ c (Proc.devRef .tc main_arg4) = _ := (W2_of_ne m ρ c main_arg4 (by decide)).trans a14
  have a25 : W2 m ρ c (Proc.devRef .tc main_arg5) = _ := (W2_of_ne m ρ c main_arg5 (by decide)).trans a15
  have a26 : W2 m ρ c (Proc.devRef .tc main_arg6) = _ := (W2_of_ne m ρ c main_arg6 (by decide)).trans a16
  have a27 : W2 m ρ c (Proc.devRef .tc main_arg7) = _ := (W2_of_ne m ρ c main_arg7 (by decide)).trans a17
  -- the first aggregation
  have h3 : W3 m ρ c (Proc.devRef .tc main_v43) = _ := layer1 (W2 m ρ c) _ _ _ _ p2 s2 d2 n2 a23
  have s3 : W3 m ρ c (Proc.devRef .tc main_v3) = _ := (keep1_v3 (W2 m ρ c)).trans s2
  have d3 : W3 m ρ c (Proc.devRef .tc main_v6) = _ := (keep1_v6 (W2 m ρ c)).trans d2
  have n3 : W3 m ρ c (Proc.devRef .tc main_v26) = _ := (keep1_v26 (W2 m ρ c)).trans n2
  have a34 : W3 m ρ c (Proc.devRef .tc main_arg4) = _ := (keep1_arg4 (W2 m ρ c)).trans a24
  have a35 : W3 m ρ c (Proc.devRef .tc main_arg5) = _ := (keep1_arg5 (W2 m ρ c)).trans a25
  have a36 : W3 m ρ c (Proc.devRef .tc main_arg6) = _ := (keep1_arg6 (W2 m ρ c)).trans a26
  have a37 : W3 m ρ c (Proc.devRef .tc main_arg7) = _ := (keep1_arg7 (W2 m ρ c)).trans a27
  -- the second call
  have p4 : W4 m ρ c (Proc.devRef .tc main_v44) = Cert.ReferenceIdeal.ReadP.val_main_v45 (m ((c : Thread nD τ).loc main_arg0)) (m ((c : Thread nD τ).loc main_arg1))
      (m ((c : Thread nD τ).loc main_arg2)) (m ((c : Thread nD τ).loc main_arg3)) (m ((c : Thread nD τ).loc main_arg4)) := by
    refine (W4_arr m ρ c 2).trans ((array1 (V3 m ρ) c).trans ?_)
    show Host.dotGeneral (F := Ideal) (φ₁ := .f32) (φ₂ := .f32) (DotDims.plain 50000 256 256) none (clamp (W3 m ρ c (Proc.devRef .tc main_v43))) (W3 m ρ c (Proc.devRef .tc main_arg4)) = _
    rw [h3, a34]; rfl
  have s4 : W4 m ρ c (Proc.devRef .tc main_v3) = _ := (W4_of_ne m ρ c main_v3 (by decide)).trans s3
  have d4 : W4 m ρ c (Proc.devRef .tc main_v6) = _ := (W4_of_ne m ρ c main_v6 (by decide)).trans d3
  have n4 : W4 m ρ c (Proc.devRef .tc main_v26) = _ := (W4_of_ne m ρ c main_v26 (by decide)).trans n3
  have a45 : W4 m ρ c (Proc.devRef .tc main_arg5) = _ := (W4_of_ne m ρ c main_arg5 (by decide)).trans a35
  have a46 : W4 m ρ c (Proc.devRef .tc main_arg6) = _ := (W4_of_ne m ρ c main_arg6 (by decide)).trans a36
  have a47 : W4 m ρ c (Proc.devRef .tc main_arg7) = _ := (W4_of_ne m ρ c main_arg7 (by decide)).trans a37
  -- the second aggregation
  have h5 : W5 m ρ c (Proc.devRef .tc main_v60) = _ := layer2 (W4 m ρ c) _ _ _ _ _ _ p4 s4 d4 (n4.trans (weights_second _).symm) a45
  have s5 : W5 m ρ c (Proc.devRef .tc main_v3) = _ := (keep2_v3 (W4 m ρ c)).trans s4
  have d5 : W5 m ρ c (Proc.devRef .tc main_v6) = _ := (keep2_v6 (W4 m ρ c)).trans d4
  have n5 : W5 m ρ c (Proc.devRef .tc main_v26) = _ := (keep2_v26 (W4 m ρ c)).trans n4
  have a56 : W5 m ρ c (Proc.devRef .tc main_arg6) = _ := (keep2_arg6 (W4 m ρ c)).trans a46
  have a57 : W5 m ρ c (Proc.devRef .tc main_arg7) = _ := (keep2_arg7 (W4 m ρ c)).trans a47
  -- the third call
  have p6 : W6 m ρ c (Proc.devRef .tc main_v61) = Cert.ReferenceIdeal.ReadP.val_main_v78 (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) := by
    refine (W6_arr m ρ c 2).trans ((array2 (V5 m ρ) c).trans ?_)
    show Host.dotGeneral (F := Ideal) (φ₁ := .f32) (φ₂ := .f32) (DotDims.plain 50000 256 40) none (clamp (W5 m ρ c (Proc.devRef .tc main_v60))) (W5 m ρ c (Proc.devRef .tc main_arg6)) = _
    rw [h5, a56]; rfl
  have s6 : W6 m ρ c (Proc.devRef .tc main_v3) = _ := (W6_of_ne m ρ c main_v3 (by decide)).trans s5
  have d6 : W6 m ρ c (Proc.devRef .tc main_v6) = _ := (W6_of_ne m ρ c main_v6 (by decide)).trans d5
  have n6 : W6 m ρ c (Proc.devRef .tc main_v26) = _ := (W6_of_ne m ρ c main_v26 (by decide)).trans n5
  have a67 : W6 m ρ c (Proc.devRef .tc main_arg7) = _ := (W6_of_ne m ρ c main_arg7 (by decide)).trans a57
  -- the third aggregation and the log-softmax
  have h7 : W7 m ρ c (Proc.devRef .tc main_v77) = _ := layer3 (W6 m ρ c) _ _ _ _ _ _ _ _ p6 s6 d6 (n6.trans (weights_third _).symm) a67
  exact log_softmax (W7 m ρ c) _ _ _ _ _ _ _ _ h7

/-- The whole run with the result read: every weakly fair execution terminates, the result buffer holding the
    reference's last stage of the launch contents of the arguments, the arguments unchanged. -/
theorem run_value : θ_run defs (onTc (τ := τ) (main (F := Ideal))) ⟨m, fun _ => 0, ρ⟩ (fun r => ∀ c : Dev nD,
      r.2.mem ((c.tc : Thread nD τ).loc main_v78)
        = Cert.ReferenceIdeal.ReadP.val_main_v110 (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩) (run m ρ)

end Cert.KernelIdeal.Whole

end
-- ==== Proof.lean ====
/-
  A three-layer graph convolution: the program with its dense products on the matrix unit against the plain
  reference.

  Both programs take node features x [50000, 256], an edge list [2, 800000], three weight matrices and three
  biases.  Both append a self-loop per node to the edge list, count the in-degrees d, and weight the edge
  (s, t) by d(s)^(-1/2) · d(t)^(-1/2).  A layer maps an array h to  A (h W) + b, where (h W) is a dense product
  and A gathers the product's rows by source node, scales each by its edge's weight and adds them up by
  destination node; between layers the array is clamped below at zero, and the last layer's result goes through a
  row-wise log-softmax.

  The two programs differ in the dense products only.  The reference computes each as one product of the whole
  arrays.  The program computes it in 25 blocks of 2000 rows, each block's operands narrowed to a 16-bit format
  and multiplied into a zero accumulator, and applies the clamp inside the next product, block by block.  At the
  ideal values a change of format is the identity and both products are the same sum over the contraction index,
  and the clamp is entry by entry, so the 25 row blocks of the program's product are the rows of the reference's
  (Proof/Payloads.lean, Proof/DenseArrays.lean).  Everything else — the edge lists, the degrees, the edge
  weights, the three aggregations, the log-softmax — is the same composition of the same operations in both
  programs, read stretch by stretch between the calls (Proof/HostStretches.lean) and put together boundary by
  boundary (Proof/Result.lean).  No law of the extended reals is needed and the inputs' finiteness is not used:
  the two results are one term of the arguments.  The reference recomputes the edge weights in every layer, the
  program once: the same term three times.

  The idealized program rewrites nothing of the printed one, so the sanctioned-idealization conjunct is trivial.
-/
import proofs.«173659_j27616639713834_1_alg».proof.Defs
import proofs.«173659_j27616639713834_1_alg».proof.Proof.Gen.Kernel
import proofs.«173659_j27616639713834_1_alg».proof.Proof.Gen.Kernel.Skeleton
import proofs.«173659_j27616639713834_1_alg».proof.Proof.Gen.Kernel.Launch
import proofs.«173659_j27616639713834_1_alg».proof.Proof.Gen.Kernel.Points
import proofs.«173659_j27616639713834_1_alg».proof.Proof.Gen.Kernel.Frame
import proofs.«173659_j27616639713834_1_alg».proof.Proof.Gen.KernelIdeal
import proofs.«173659_j27616639713834_1_alg».proof.Proof.Gen.KernelIdeal.Skeleton
import proofs.«173659_j27616639713834_1_alg».proof.Proof.Gen.KernelIdeal.Launch
import proofs.«173659_j27616639713834_1_alg».proof.Proof.Gen.KernelIdeal.Points
import proofs.«173659_j27616639713834_1_alg».proof.Proof.Gen.KernelIdeal.Frame
import proofs.«173659_j27616639713834_1_alg».proof.Proof.Gen.ReferenceIdeal
import proofs.«173659_j27616639713834_1_alg».proof.Proof.Gen.Pre_finite_inputs
import proofs.«173659_j27616639713834_1_alg».proof.Proof.RefRunPatched
import proofs.«173659_j27616639713834_1_alg».proof.Proof.RefReadPatched
import proofs.«173659_j27616639713834_1_alg».proof.Proof.Result
import Idealize.ShloMosaic.Adequacy
import Idealize.ShloMosaic.Init

noncomputable section

namespace Cert.Proof

open Idealize.ShloMosaic Idealize.SL.Sem

/-- The printed program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- At the ideal values the program and the reference, from memories that agree on the arguments, both end with the
    reference's last stage of those arguments in their result buffers. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v110_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
